-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S4x4096x2048 .f32) (main_arg1 : FVec F S64x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S4x4096x2048 : Shape := ⟨3, ![4, 4096, 2048]⟩
abbrev S64x2048 : Shape := ⟨2, ![64, 2048]⟩
abbrev S4x64x4096 : Shape := ⟨3, ![4, 64, 4096]⟩
abbrev S1x1024x2048 : Shape := ⟨3, ![1, 1024, 2048]⟩
abbrev S1x64x1024 : Shape := ⟨3, ![1, 64, 1024]⟩
abbrev S1024x2048 : Shape := ⟨2, ![1024, 2048]⟩
abbrev S64x1024 : Shape := ⟨2, ![64, 1024]⟩
abbrev S1024 : Shape := ⟨1, ![1024]⟩
abbrev S1x1024 : Shape := ⟨2, ![1, 1024]⟩
abbrev S4x4096x64 : Shape := ⟨3, ![4, 4096, 64]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x64x4096, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S64x2048, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S64x2048_S64x2048_0_0 : ∀ a, (![0, 0] : Fin 2 → Nat) a + S64x2048.size a ≤ S64x2048.size a
  h_S64x2048 : 0 < S64x2048.numel
  reduces_S64x1024_S1024 : S64x1024.Reduces [0] S1024
  shapeCasts_S1024_S1x1024 : S1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  transposes_S4x64x4096_S4x4096x64_0_2_1 : S4x64x4096.Transposes [0, 2, 1] S4x4096x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x4096x2048.size a
  hwx0_0 : ∀ i : grid0.Coords, EltTy.bits .f32 = 32 ∨ (Rect.block (s := S4x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x64x4096.size a
  hwx0_2 : ∀ i : grid0.Coords, EltTy.bits .f32 = 32 ∨ (Rect.block (s := S4x64x4096) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S4x64x4096.size a
  hwx0_3 : ∀ i : grid0.Coords, EltTy.bits .f32 = 32 ∨ (Rect.block (s := S4x64x4096) S1x64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  dot_S4x4096x2048_S64x2048_S4x4096x64_2_1_01_0_n_n_wf : DotDims.WF S4x4096x2048 S64x2048 S4x4096x64 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf

class Facts : Prop extends Facts₀ where

variable [Facts]
-- ==== Proof.Router.lean ====
/-
  The router's mathematics, with no program in sight.  A token (b, s) has one score per expert e, the inner
  product of its 2048 features with the expert's weight row; its shares are the softmax of the 64 scores: each
  score less the largest, exponentiated, and divided by the sum of the 64 exponentials.  Everything is read on
  the extended reals with the exact operations, so the largest score is the fold of `max` from −∞ and the
  quotient is the extended reals' division.  The two result arrays are stated token-major ([4, 4096, 64]) and
  expert-major ([4, 64, 4096], the arrangement in which the scores are first produced).
-/
import Idealize.ShloMosaic.PureOps.Ideal.Laws
import Idealize.ShloMosaic.Lib.ValueIdx

noncomputable section

open scoped BigOperators

namespace Cert.Router

open Idealize.ShloMosaic Idealize.ShloMosaic.ValueIdx

/-- The token array, [4, 4096, 2048], and the weight array, [64, 2048], as extended reals. -/
abbrev Tokens := (⟨3, ![4, 4096, 2048]⟩ : Shape).Idx → EReal
abbrev Weights := (⟨2, ![64, 2048]⟩ : Shape).Idx → EReal

/-- Token (b, s)'s score for expert e: the inner product of the token's features with the expert's row. -/
def score (x : Tokens) (w : Weights) (b : Fin 4) (s : Fin 4096) (e : Fin 64) : EReal :=
  ∑ d : Fin 2048, x (ix3 b s d) * w (ix2 e d)

/-- The largest of a token's 64 scores, folded from −∞. -/
def peak (x : Tokens) (w : Weights) (b : Fin 4) (s : Fin 4096) : EReal :=
  (Finset.univ : Finset (Fin 64)).fold max (Ideal.ofBits .f32 0xFF800000#32) (fun e => score x w b s e)

/-- The exponential of a score less the token's largest score. -/
def weight (x : Tokens) (w : Weights) (b : Fin 4) (s : Fin 4096) (e : Fin 64) : EReal :=
  Ideal.exp (score x w b s e - peak x w b s)

/-- Expert e's share of token (b, s): its exponential over the sum of the token's 64 exponentials. -/
def share (x : Tokens) (w : Weights) (b : Fin 4) (s : Fin 4096) (e : Fin 64) : EReal :=
  Ideal.div (weight x w b s e) (∑ k : Fin 64, weight x w b s k)

/-- The scores and the shares, token-major: entry (b, s, e). -/
def scores (x : Tokens) (w : Weights) : (⟨3, ![4, 4096, 64]⟩ : Shape).Idx → EReal :=
  fun i => score x w (i 0) (i 1) (i 2)
def shares (x : Tokens) (w : Weights) : (⟨3, ![4, 4096, 64]⟩ : Shape).Idx → EReal :=
  fun i => share x w (i 0) (i 1) (i 2)

/-- The same two arrays expert-major: entry (b, e, s). -/
def scoresT (x : Tokens) (w : Weights) : (⟨3, ![4, 64, 4096]⟩ : Shape).Idx → EReal :=
  fun i => score x w (i 0) (i 2) (i 1)
def sharesT (x : Tokens) (w : Weights) : (⟨3, ![4, 64, 4096]⟩ : Shape).Idx → EReal :=
  fun i => share x w (i 0) (i 2) (i 1)

/-- The f32 pattern of −∞ is the bottom of the extended reals, so a maximum against it is the other operand. -/
theorem max_neg_inf (y : EReal) : max (Ideal.ofBits .f32 0xFF800000#32) y = y := by
  simp [Ideal.ofBits, Ideal.ieee]

end Cert.Router

end
-- ==== Proof.RefSide.lean ====
/-
  The reference computes the router's two arrays token-major.  Its inner products are the scores term by term;
  its row maximum (a fold of `max` from −∞ over the expert axis, then one more maximum against −∞, which changes
  nothing) is the token's largest score; what follows — subtract, exponentiate, sum over the experts from zero,
  divide — is the share, operation for operation.
-/
import proofs.«176301_g2018634629600_cont_8to1_1040_19_alg».proof.Proof.Gen.ReferenceIdeal.Read
import proofs.«176301_g2018634629600_cont_8to1_1040_19_alg».proof.Proof.Router

noncomputable section

open scoped BigOperators

namespace Cert.Router.Ref

open Idealize.ShloMosaic Idealize.ShloMosaic.ValueIdx
open Cert.ReferenceIdeal Cert.ReferenceIdeal.Gen Cert.ReferenceIdeal.Read

/-- The reference's inner products are the scores. -/
theorem dot_eq (x : Tokens) (w : Weights) : val_main_v0 (F := Ideal) x w = scores x w := by
  funext i
  obtain ⟨b, s, e, rfl⟩ : ∃ (b : Fin 4) (s : Fin 4096) (e : Fin 64), i = ix3 b s e := ⟨i 0, i 1, i 2, eq_ix3 i⟩
  rw [val_main_v0_apply]
  show _ = score x w b s e
  unfold score
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- The expert axis can be dropped from [4, 4096, 64]. -/
theorem drops_experts : S4x4096x64.Reduces [2] S4x4096 := by decide

/-- Token (b, s) with expert e put back on the last axis is (b, s, e). -/
theorem lift_token (b : Fin 4) (s : Fin 4096) (e : Fin 64) : drops_experts.lift (ix2 b s) e = ix3 b s e :=
  funext fun a => Fin.ext (by match a with | ⟨0, _⟩ => rfl | ⟨1, _⟩ => rfl | ⟨2, _⟩ => rfl)

/-- The reference's row maximum at token (b, s) is the token's largest score. -/
theorem peak_eq (x : Tokens) (w : Weights) (b : Fin 4) (s : Fin 4096) :
    val_main_v3 (F := Ideal) x w (ix2 b s) = peak x w b s := by
  rw [val_main_v3_apply, val_main_v2_apply, val_main_cst_0_apply]
  unfold val_main_v1
  rw [dot_eq, Host.reduce_eq_fold_single FloatOps.maximumf _ _ reducesTo_S4x4096x64_S4x4096_d2 drops_experts h_S_]
  show max (Ideal.ofBits .f32 0xFF800000#32) _ = _
  rw [max_neg_inf]
  unfold peak
  exact congrArg (fun f : Fin 64 → EReal => (Finset.univ : Finset (Fin 64)).fold max (Ideal.ofBits .f32 0xFF800000#32) f)
    (funext fun e => congrArg (scores x w) (lift_token b s e))

/-- The reference's exponentials are the weights. -/
theorem weight_eq (x : Tokens) (w : Weights) (b : Fin 4) (s : Fin 4096) (e : Fin 64) :
    val_main_v7 (F := Ideal) x w (ix3 b s e) = weight x w b s e := by
  rw [val_main_v7_apply, val_main_v6_apply, val_main_v5_apply, val_main_v4_apply]
  have ei : idx_main_v4 (idx_main_v5 (ix3 b s e)) = ix2 b s :=
    funext fun a => Fin.ext (by match a with | ⟨0, _⟩ => rfl | ⟨1, _⟩ => rfl)
  rw [ei, peak_eq, dot_eq]
  rfl

/-- The reference's first result is the array of shares. -/
theorem shares_eq (x : Tokens) (w : Weights) : val_main_v11 (F := Ideal) x w = shares x w := by
  funext i
  obtain ⟨b, s, e, rfl⟩ : ∃ (b : Fin 4) (s : Fin 4096) (e : Fin 64), i = ix3 b s e := ⟨i 0, i 1, i 2, eq_ix3 i⟩
  rw [val_main_v11_apply, val_main_v10_apply, val_main_v9_apply, val_main_v8_apply, val_main_cst_1_apply, weight_eq]
  have ei : idx_main_v9 (idx_main_v10 (ix3 b s e)) = ix2 b s :=
    funext fun a => Fin.ext (by match a with | ⟨0, _⟩ => rfl | ⟨1, _⟩ => rfl)
  have ek : ∀ k : Fin 64, idx_main_v8 (ix2 b s) k = ix3 b s k := fun k =>
    funext fun a => Fin.ext (by match a with | ⟨0, _⟩ => rfl | ⟨1, _⟩ => rfl | ⟨2, _⟩ => rfl)
  rw [ei]
  simp only [ek, weight_eq]
  show Ideal.div _ (Ideal.ofBits .f32 0x00000000#32 + _) = share x w b s e
  rw [Ideal.ofBits_zero_f32, zero_add]
  rfl

end Cert.Router.Ref

end
-- ==== Proof.LibLeadAxis.lean ====
/-
  Reductions over the LEADING axis of an [m, n] vector, kept as a [1, n] row and broadcast back down the m
  rows (what `jnp.max(x, axis=0, keepdims=True)` and `jnp.sum(x, axis=0, keepdims=True)` become in a kernel
  body), read at an entry (k, j): the fold of `max` from the f32 pattern of −∞, and the plain sum, over the
  m entries of column j.  General in the extents m and n.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LeadAxis

open Idealize.ShloMosaic Idealize.ShloMosaic.ValueIdx

variable {m n : Nat}

/-- The index of the [m, n] vector that reduces to lane `j` with `k` put back on the leading axis is (k, j). -/
theorem lift_lead (h : (⟨2, ![m, n]⟩ : Shape).Reduces [0] ⟨1, ![n]⟩) (j : Fin n) (k : Fin m) :
    h.lift (ix1 j) k = ix2 k j :=
  funext fun a => Fin.ext (by match a with | ⟨0, _⟩ => rfl | ⟨1, _⟩ => rfl)

/-- A maximum over the leading axis, at lane `j`: the fold of `max` from −∞'s pattern down column `j`. -/
theorem max_lead_apply (src : FVec Ideal ⟨2, ![m, n]⟩ .f32) (h : (⟨2, ![m, n]⟩ : Shape).Reduces [0] ⟨1, ![n]⟩)
    (hφ : FKind.Formats .f32) (hacc : (0xFF800000#32 : BitVec 32) = 0xFF800000#32) (j : Fin n) :
    multiReduction .maximumf [0] ⟨1, ![n]⟩ src 0xFF800000#32 h hφ hacc (ix1 j)
      = (Finset.univ : Finset (Fin m)).fold max (Ideal.ofBits .f32 0xFF800000#32) (fun k => src (ix2 k j)) := by
  refine (Ideal.multiReduction_maximumf_single src 0xFF800000#32 h hφ hacc (ix1 j)).trans ?_
  exact congrArg (fun f : Fin m → EReal => (Finset.univ : Finset (Fin m)).fold max (Ideal.ofBits .f32 0xFF800000#32) f)
    (funext fun k => congrArg src (lift_lead h j k))

/-- A sum over the leading axis, at lane `j`: the sum down column `j`. -/
theorem sum_lead_apply (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ k : Fin m, src (ix2 k j) := by
  refine (Ideal.multiReduction_add_single src 0x00000000#32 h hφ hacc (ix1 j)).trans ?_
  exact Finset.sum_congr rfl fun k _ => congrArg src (lift_lead h j k)

/-- A lane vector kept as a one-row matrix and broadcast down `m` rows reads, at (k, j), lane `j`. -/
theorem keepdims_apply {α : Type} (v : (⟨1, ![n]⟩ : Shape).Idx → α) (hc : (⟨1, ![n]⟩ : Shape).ShapeCasts ⟨2, ![1, n]⟩)
    (hb : (⟨2, ![1, n]⟩ : Shape).Broadcasts ⟨2, ![m, n]⟩) (k : Fin m) (j : Fin n) :
    broadcastTo ⟨2, ![m, n]⟩ (shapeCast ⟨2, ![1, n]⟩ v hc) hb (ix2 k j) = v (ix1 j) :=
  (broadcastTo_1b_ab_apply _ hb k j).trans (shapeCast_a_1a_apply v hc 0 j)

/-- A lane vector kept as a one-row matrix reads, at (0, j), lane `j`. -/
theorem keeprow_apply {α : Type} (v : (⟨1, ![n]⟩ : Shape).Idx → α) (hc : (⟨1, ![n]⟩ : Shape).ShapeCasts ⟨2, ![1, n]⟩)
    (u : Fin 1) (j : Fin n) : shapeCast ⟨2, ![1, n]⟩ v hc (ix2 u j) = v (ix1 j) :=
  shapeCast_a_1a_apply v hc u j

end Cert.LeadAxis

end
-- ==== Proof.Body.lean ====
/-
  One grid point's arithmetic, entry by entry.  The body multiplies the weight array [64, 2048] by the
  transpose of a block of 1024 token rows, so the product block is expert-major: entry (e, r) is the inner
  product of weight row e with the block's row r.  It then takes, down each column r, the maximum from −∞ and —
  of the exponentials of the entries less that maximum — the sum, and divides: column r of the second block is
  the softmax of column r of the first.  When the block's rows are rows of the token array and the weights are
  the weight array, the two blocks are blocks of the expert-major scores and shares.
-/
import proofs.«176301_g2018634629600_cont_8to1_1040_19_alg».proof.Proof.Gen.KernelIdeal.Skeleton
import proofs.«176301_g2018634629600_cont_8to1_1040_19_alg».proof.Proof.Router
import proofs.«176301_g2018634629600_cont_8to1_1040_19_alg».proof.Proof.LibLeadAxis
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Router.Body

open Idealize.ShloMosaic Idealize.ShloMosaic.ValueIdx
open Cert.KernelIdeal Cert.KernelIdeal.Gen

/-- The operand indices of the product at output entry `i` and contraction coordinate `q`, axis by axis: the
    left operand (the weights) at (i 0, q), the right operand (the token rows) at (i 1, q). -/
theorem lhs_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl
theorem lhs_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl
theorem rhs_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The product block at (e, r): weight row e against the block's token row r, summed over the 2048 features
    (the product accumulates into a zero block, which adds nothing). -/
theorem product_apply (v0 : Vec Ideal S1x1024x2048 .f32) (v2 : Vec Ideal S64x2048 .f32) (e : Fin 64) (r : Fin 1024) :
    k0_pay1 (F := Ideal) v0 v2 (ix2 e r) = ∑ d : Fin 2048, v2 (ix2 e d) * v0 (ix3 (0 : Fin 1) r d) := by
  show FloatOps.matmul dot_S64x2048_S1024x2048_S64x1024_1_1_0_0_n_n none (v2 : FVec Ideal S64x2048 .f32)
      (shapeCast S1024x2048 (v0 : FVec Ideal S1x1024x2048 .f32) shapeCasts_S1x1024x2048_S1024x2048 : FVec Ideal S1024x2048 .f32)
      (constant S64x1024 .f32 0x00000000#32) (ix2 e r) = _
  rw [Ideal.matmul_constant_zero_apply,
    ← Equiv.sum_comp (contrEquiv1 dot_S64x2048_S1024x2048_S64x1024_1_1_0_0_n_n 2048 rfl rfl).symm]
  refine Finset.sum_congr rfl fun d _ => ?_
  have hk := contrEquiv1_symm_val dot_S64x2048_S1024x2048_S64x1024_1_1_0_0_n_n 2048 rfl rfl d
  have el : dot_S64x2048_S1024x2048_S64x1024_1_1_0_0_n_n.lhsIdx (ix2 e r)
      ((contrEquiv1 dot_S64x2048_S1024x2048_S64x1024_1_1_0_0_n_n 2048 rfl rfl).symm d) = ix2 e d :=
    funext fun a => Fin.ext (by
      match a with
      | ⟨0, _⟩ => exact lhs_0 _ _
      | ⟨1, _⟩ => exact (lhs_1 _ _).trans hk)
  have er : dot_S64x2048_S1024x2048_S64x1024_1_1_0_0_n_n.rhsIdx (ix2 e r)
      ((contrEquiv1 dot_S64x2048_S1024x2048_S64x1024_1_1_0_0_n_n 2048 rfl rfl).symm d) = ix2 r d :=
    funext fun a => Fin.ext (by
      match a with
      | ⟨0, _⟩ => exact rhs_0 _ _
      | ⟨1, _⟩ => exact (rhs_1 _ _).trans hk)
  rw [el, er, shapeCast_1ab_ab_apply]

/-- An exponential at an entry is the exponential of the entry. -/
theorem exp_apply {s : Shape} (a : FVec Ideal s .f32) (i : s.Idx) : exp a i = Ideal.exp (a i) := rfl

/-- The maximum of column r of an expert-major block, folded from −∞. -/
def colMax (P : FVec Ideal S64x1024 .f32) (r : Fin 1024) : EReal :=
  (Finset.univ : Finset (Fin 64)).fold max (Ideal.ofBits .f32 0xFF800000#32) (fun k => P (ix2 k r))

/-- The softmax down the columns of an expert-major block, as the body spells it, at (e, r): the exponential of
    the entry less its column's maximum, over the sum down the column of those exponentials. -/
theorem softmax_apply (P : FVec Ideal S64x1024 .f32) (u : Fin 1) (e : Fin 64) (r : Fin 1024) :
    shapeCast S1x64x1024
        (divf
          (exp (subf P (broadcastTo S64x1024 (shapeCast S1x1024
            (multiReduction .maximumf [0] S1024 P 0xFF800000#32 reduces_S64x1024_S1024 (.inl rfl) rfl)
            shapeCasts_S1024_S1x1024) broadcasts_S1x1024_S64x1024)))
          (broadcastTo S64x1024 (shapeCast S1x1024
            (multiReduction .add [0] S1024
              (exp (subf P (broadcastTo S64x1024 (shapeCast S1x1024
                (multiReduction .maximumf [0] S1024 P 0xFF800000#32 reduces_S64x1024_S1024 (.inl rfl) rfl)
                shapeCasts_S1024_S1x1024) broadcasts_S1x1024_S64x1024)))
              0x00000000#32 reduces_S64x1024_S1024 (.inl rfl) rfl)
            shapeCasts_S1024_S1x1024) broadcasts_S1x1024_S64x1024))
        shapeCasts_S64x1024_S1x64x1024 (ix3 u e r)
      = Ideal.div (Ideal.exp (P (ix2 e r) - colMax P r)) (∑ k : Fin 64, Ideal.exp (P (ix2 k r) - colMax P r)) := by
  rw [shapeCast_ab_1ab_apply]
  rw [divf_apply]
  rw [exp_apply]
  rw [subf_apply]
  rw [LeadAxis.keepdims_apply]
  rw [LeadAxis.keepdims_apply]
  rw [LeadAxis.max_lead_apply]
  rw [LeadAxis.sum_lead_apply]
  unfold colMax
  refine congrArg (Ideal.div _) (Finset.sum_congr rfl fun k _ => ?_)
  rw [exp_apply, subf_apply, LeadAxis.keepdims_apply, LeadAxis.max_lead_apply]

/-- The second stored block is that softmax of the product block. -/
theorem shares_payload (v0 : Vec Ideal S1x1024x2048 .f32) (v2 : Vec Ideal S64x2048 .f32) (u : Fin 1) (e : Fin 64)
    (r : Fin 1024) :
    k0_pay3 (F := Ideal) v0 v2 (ix3 u e r)
      = Ideal.div (Ideal.exp (k0_pay1 (F := Ideal) v0 v2 (ix2 e r) - colMax (k0_pay1 (F := Ideal) v0 v2) r))
          (∑ k : Fin 64, Ideal.exp (k0_pay1 (F := Ideal) v0 v2 (ix2 k r) - colMax (k0_pay1 (F := Ideal) v0 v2) r)) :=
  softmax_apply (k0_pay1 (F := Ideal) v0 v2) u e r

/-- The first stored block is the product block with a unit axis in front. -/
theorem scores_payload (v0 : Vec Ideal S1x1024x2048 .f32) (v2 : Vec Ideal S64x2048 .f32) (u : Fin 1) (e : Fin 64)
    (r : Fin 1024) : k0_pay2 (F := Ideal) v0 v2 (ix3 u e r) = k0_pay1 (F := Ideal) v0 v2 (ix2 e r) := by
  unfold k0_pay2
  exact shapeCast_ab_1ab_apply _ _ u e r

section Block

variable (X : Tokens) (W : Weights) (b : Fin 4) (row : Fin 1024 → Fin 4096)
variable (v0 : Vec Ideal S1x1024x2048 .f32) (v2 : Vec Ideal S64x2048 .f32)
variable (hv0 : ∀ (r : Fin 1024) (d : Fin 2048), v0 (ix3 (0 : Fin 1) r d) = X (ix3 b (row r) d))
variable (hv2 : ∀ (e : Fin 64) (d : Fin 2048), v2 (ix2 e d) = W (ix2 e d))

include hv0 hv2

/-- When the block's row r is row `row r` of batch b of the token array and the weights are the weight array, the
    product block at (e, r) is that token's score for expert e (a product of two extended reals commutes). -/
theorem product_eq_score (e : Fin 64) (r : Fin 1024) : k0_pay1 (F := Ideal) v0 v2 (ix2 e r) = score X W b (row r) e := by
  rw [product_apply]
  unfold score
  exact Finset.sum_congr rfl fun d _ => by rw [hv0, hv2, mul_comm]

/-- The first stored block holds scores … -/
theorem scores_block (u : Fin 1) (e : Fin 64) (r : Fin 1024) : k0_pay2 (F := Ideal) v0 v2 (ix3 u e r) = score X W b (row r) e :=
  (scores_payload v0 v2 u e r).trans (product_eq_score X W b row v0 v2 hv0 hv2 e r)

/-- … and the second the shares of the same tokens. -/
theorem shares_block (u : Fin 1) (e : Fin 64) (r : Fin 1024) : k0_pay3 (F := Ideal) v0 v2 (ix3 u e r) = share X W b (row r) e := by
  rw [shares_payload]
  unfold colMax
  simp only [product_eq_score X W b row v0 v2 hv0 hv2]
  rfl

end Block

end Cert.Router.Body

end
-- ==== Proof.Blocks.lean ====
/-
  From the grid's blocks to the two arrays the region leaves.  The grid has 4 × 4 points; point (b, q) reads
  token rows 1024·q … 1024·q + 1023 of batch b and the whole weight array, and writes block (b, 0, q) of each
  of the two expert-major [4, 64, 4096] arrays.  So what a point writes back is a block of ONE function of the
  argument arrays — the expert-major shares for the first output, the expert-major scores for the second —, the
  sixteen blocks tile each array, and each array ends holding that function.
-/
import proofs.«176301_g2018634629600_cont_8to1_1040_19_alg».proof.Proof.Gen.KernelIdeal.Frame
import proofs.«176301_g2018634629600_cont_8to1_1040_19_alg».proof.Proof.Body
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Router.Blocks

open Cert.KernelIdeal Cert.KernelIdeal.Gen

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the sixteen points: the token window's block index is (b, q, 0) where the
    outputs' is (b, 0, q); the weight window's is (0, 0); b and q stay below 4. -/
theorem index_facts : ∀ t : Fin cfg0.N,
    win0_0.index t (0 : Fin 3) = win0_2.index t (0 : Fin 3) ∧ win0_0.index t (1 : Fin 3) = win0_2.index t (2 : Fin 3)
    ∧ win0_0.index t (2 : Fin 3) = 0 ∧ win0_1.index t (0 : Fin 2) = 0 ∧ win0_1.index t (1 : Fin 2) = 0
    ∧ win0_2.index t (1 : Fin 3) = 0 ∧ win0_2.index t (0 : Fin 3) < 4 ∧ win0_2.index t (2 : Fin 3) < 4
    ∧ win0_3.index t (0 : Fin 3) = win0_2.index t (0 : Fin 3) ∧ win0_3.index t (1 : Fin 3) = 0
    ∧ win0_3.index t (2 : Fin 3) = win0_2.index t (2 : Fin 3) :=
  (by decide +kernel : ∀ t : Fin grid0.N, _)

/-- Every block (b, 0, q) of the outputs is some point's. -/
theorem index_onto : ∀ (q0 : Fin 4) (q2 : Fin 4), ∃ t : Fin cfg0.N, win0_2.index t = ![q0.val, 0, q2.val] :=
  (by decide +kernel : ∀ (q0 : Fin 4) (q2 : Fin 4), ∃ t : Fin grid0.N, win0_2.index t = ![q0.val, 0, q2.val])

/-- The token window's block at a point: its row r is row 1024·q + r of batch b of the token array. -/
theorem tokens_block (c : Dev nD) (t : Fin cfg0.N) (y : S1x1024x2048.Idx) (k : S4x4096x2048.Idx)
    (h0 : (k 0).val = win0_2.index t (0 : Fin 3)) (h1 : (k 1).val = win0_2.index t (2 : Fin 3) * 1024 + (y 1).val)
    (h2 : (k 2).val = (y 2).val) :
    (iblk m c 0 t : Vec Ideal S1x1024x2048 .f32) y = (V m c main_arg0 : S4x4096x2048.Idx → Elt Ideal .f32) k := by
  obtain ⟨e0, e1, e2, -⟩ := index_facts t
  unfold iblk
  rw [View.read_apply]
  show V m c main_arg0 _ = V m c main_arg0 _
  congr 1
  funext a
  apply Fin.ext
  have hy0 : (y 0).val < 1 := (y 0).isLt
  match a with
  | ⟨0, _⟩ => show win0_0.index t (0 : Fin 3) * 1 + 1 * (y 0).val = (k 0).val; rw [e0, h0]; omega
  | ⟨1, _⟩ => show win0_0.index t (1 : Fin 3) * 1024 + 1 * (y 1).val = (k 1).val; rw [e1, h1]; omega
  | ⟨2, _⟩ => show win0_0.index t (2 : Fin 3) * 2048 + 1 * (y 2).val = (k 2).val; rw [e2, h2]; omega

/-- The weight window's block at every point is the weight array. -/
theorem weights_block (c : Dev nD) (t : Fin cfg0.N) (y : S64x2048.Idx) :
    (iblk m c 1 t : Vec Ideal S64x2048 .f32) y = (V m c main_arg1 : S64x2048.Idx → Elt Ideal .f32) y := by
  obtain ⟨-, -, -, e3, e4, -⟩ := index_facts t
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e3]; omega
  | ⟨1, _⟩ => show win0_1.index t (1 : Fin 2) * 2048 + 1 * (y 1).val = (y 1).val; rw [e4]; omega

section Entry

variable (X : Tokens) (W : Weights) (v0 : Vec Ideal S1x1024x2048 .f32) (v2 : Vec Ideal S64x2048 .f32) (b q : Nat)
variable (hb : b < 4) (hq : q < 4)
variable (hv0 : ∀ (y : S1x1024x2048.Idx) (k : S4x4096x2048.Idx), (k 0).val = b → (k 1).val = q * 1024 + (y 1).val →
    (k 2).val = (y 2).val → v0 y = X k)
variable (hv2 : ∀ y : S64x2048.Idx, v2 y = W y)

include hb hq hv0 hv2

/-- Entry `j` of the block a point stores first in its body (the scores) is entry `i` of the expert-major scores,
    when `i` is `j` moved into block (b, 0, q). -/
theorem scores_entry (j : S1x64x1024.Idx) (i : S4x64x4096.Idx) (hi0 : (i 0).val = b) (hi1 : (i 1).val = (j 1).val)
    (hi2 : (i 2).val = q * 1024 + (j 2).val) : k0_pay2 (F := Ideal) v0 v2 j = scoresT X W i := by
  obtain ⟨u, e, r, rfl⟩ : ∃ (u : Fin 1) (e : Fin 64) (r : Fin 1024), j = ix3 u e r := ⟨j 0, j 1, j 2, eq_ix3 j⟩
  have hrow : ∀ r : Fin 1024, q * 1024 + r.val < 4096 := fun r => by have := r.isLt; omega
  rw [Body.scores_block X W ⟨b, hb⟩ (fun r => ⟨q * 1024 + r.val, hrow r⟩) v0 v2 (fun r d => hv0 _ _ rfl rfl rfl)
    (fun e d => hv2 _) u e r]
  have a0 : (⟨b, hb⟩ : Fin 4) = i 0 := Fin.ext hi0.symm
  have a1 : (⟨q * 1024 + r.val, hrow r⟩ : Fin 4096) = i 2 := Fin.ext hi2.symm
  have a2 : e = i 1 := Fin.ext hi1.symm
  rw [a0, a1, a2]
  rfl

/-- The same for the block stored second (the shares). -/
theorem shares_entry (j : S1x64x1024.Idx) (i : S4x64x4096.Idx) (hi0 : (i 0).val = b) (hi1 : (i 1).val = (j 1).val)
    (hi2 : (i 2).val = q * 1024 + (j 2).val) : k0_pay3 (F := Ideal) v0 v2 j = sharesT X W i := by
  obtain ⟨u, e, r, rfl⟩ : ∃ (u : Fin 1) (e : Fin 64) (r : Fin 1024), j = ix3 u e r := ⟨j 0, j 1, j 2, eq_ix3 j⟩
  have hrow : ∀ r : Fin 1024, q * 1024 + r.val < 4096 := fun r => by have := r.isLt; omega
  rw [Body.shares_block X W ⟨b, hb⟩ (fun r => ⟨q * 1024 + r.val, hrow r⟩) v0 v2 (fun r d => hv0 _ _ rfl rfl rfl)
    (fun e d => hv2 _) u e r]
  have a0 : (⟨b, hb⟩ : Fin 4) = i 0 := Fin.ext hi0.symm
  have a1 : (⟨q * 1024 + r.val, hrow r⟩ : Fin 4096) = i 2 := Fin.ext hi2.symm
  have a2 : e = i 1 := Fin.ext hi1.symm
  rw [a0, a1, a2]
  rfl

end Entry

/-- WHAT POINT `t` WRITES BACK to the first output is block `t` of the expert-major shares of the argument arrays. -/
theorem flushed_shares (c : Dev nD) (t : Fin cfg0.N) :
    (dats m 0 c).flushed 2 t
      = ((cfg0.win 2).blk t).view.read (Elt Ideal) (sharesT (V m c main_arg0) (V m c main_arg1)) := by
  show (cfg0.win 2).cut (grid0.coords t) ((dats m 0 c).after 2 t) = _
  rw [after0_2]
  unfold out0_2
  rw [View.canon_unit_zero zeros3]
  simp only [View.ld_unit_zero (S := S1x1024x2048) zeros3, View.ld_unit_zero (S := S64x2048) zeros2]
  obtain ⟨-, -, -, -, -, e5, l0, l2, -⟩ := index_facts t
  funext j
  show k0_pay3 (iblk m c 0 t) (iblk m c 1 t) j = sharesT (V m c main_arg0) (V m c main_arg1) (((cfg0.win 2).blk t).view.emb j)
  have hj0 : (j 0).val < 1 := (j 0).isLt
  refine shares_entry (V m c main_arg0) (V m c main_arg1) (iblk m c 0 t) (iblk m c 1 t) (win0_2.index t (0 : Fin 3))
    (win0_2.index t (2 : Fin 3)) l0 l2 (fun y k h0 h1 h2 => tokens_block m c t y k h0 h1 h2) (fun y => weights_block m c t y)
    j _ ?_ ?_ ?_
  · show win0_2.index t (0 : Fin 3) * 1 + 1 * (j 0).val = win0_2.index t (0 : Fin 3); omega
  · show win0_2.index t (1 : Fin 3) * 64 + 1 * (j 1).val = (j 1).val; omega
  · show win0_2.index t (2 : Fin 3) * 1024 + 1 * (j 2).val = win0_2.index t (2 : Fin 3) * 1024 + (j 2).val; omega

/-- … and to the second output, block `t` of the expert-major scores. -/
theorem flushed_scores (c : Dev nD) (t : Fin cfg0.N) :
    (dats m 0 c).flushed 3 t
      = ((cfg0.win 3).blk t).view.read (Elt Ideal) (scoresT (V m c main_arg0) (V m c main_arg1)) := by
  show (cfg0.win 3).cut (grid0.coords t) ((dats m 0 c).after 3 t) = _
  rw [after0_3]
  unfold out0_3
  rw [View.canon_unit_zero zeros3]
  simp only [View.ld_unit_zero (S := S1x1024x2048) zeros3, View.ld_unit_zero (S := S64x2048) zeros2]
  obtain ⟨-, -, -, -, -, e5, l0, l2, f0, f1, f2⟩ := index_facts t
  funext j
  show k0_pay2 (iblk m c 0 t) (iblk m c 1 t) j = scoresT (V m c main_arg0) (V m c main_arg1) (((cfg0.win 3).blk t).view.emb j)
  have hj0 : (j 0).val < 1 := (j 0).isLt
  refine scores_entry (V m c main_arg0) (V m c main_arg1) (iblk m c 0 t) (iblk m c 1 t) (win0_2.index t (0 : Fin 3))
    (win0_2.index t (2 : Fin 3)) l0 l2 (fun y k h0 h1 h2 => tokens_block m c t y k h0 h1 h2) (fun y => weights_block m c t y)
    j _ ?_ ?_ ?_
  · show win0_3.index t (0 : Fin 3) * 1 + 1 * (j 0).val = win0_2.index t (0 : Fin 3); omega
  · show win0_3.index t (1 : Fin 3) * 64 + 1 * (j 1).val = (j 1).val; omega
  · show win0_3.index t (2 : Fin 3) * 1024 + 1 * (j 2).val = win0_2.index t (2 : Fin 3) * 1024 + (j 2).val; omega

/-- An index of an output array is in point `t`'s block iff each coordinate is in the block's range on its axis. -/
theorem mem_block2 (t : Fin cfg0.N) (i : S4x64x4096.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v0_0).slice (win0_2.rect t)).set ↔ _
  rw [View.set_slice_whole, Rect.mem_set_unit]
  exact Iff.rfl
theorem mem_block3 (t : Fin cfg0.N) (i : S4x64x4096.Idx) :
    i ∈ ((cfg0.win 3).blk t).view.set ↔ ∀ a : Fin 3, win0_3.index t a * S1x64x1024.size a ≤ (i a).val
      ∧ (i a).val < win0_3.index t a * S1x64x1024.size a + S1x64x1024.size a := by
  show i ∈ ((View.whole main_v0_1).slice (win0_3.rect t)).set ↔ _
  rw [View.set_slice_whole, Rect.mem_set_unit]
  exact Iff.rfl

/-- The sixteen blocks tile each output: entry (b, e, s) lies in the block of the point with index (b, 0, s / 1024). -/
theorem cover2 (i : S4x64x4096.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 4096 := (i 2).isLt
  obtain ⟨t, ht⟩ := index_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_block2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 1024 ≤ (i 2).val ∧ (i 2).val < win0_2.index t (2 : Fin 3) * 1024 + 1024; omega
theorem cover3 (i : S4x64x4096.Idx) : ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 4096 := (i 2).isLt
  obtain ⟨t, ht⟩ := index_onto ⟨(i 0).val, hi0⟩ ⟨(i 2).val / 1024, by omega⟩
  obtain ⟨-, -, -, -, -, -, -, -, f0, f1, f2⟩ := index_facts t
  have q0 : win0_2.index t (0 : Fin 3) = (i 0).val := congrFun ht 0
  have q2 : win0_2.index t (2 : Fin 3) = (i 2).val / 1024 := congrFun ht 2
  refine ⟨t, flush0_3 t, ?_⟩
  rw [mem_block3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 1024 ≤ (i 2).val ∧ (i 2).val < win0_3.index t (2 : Fin 3) * 1024 + 1024; omega

/-- THE TWO ARRAYS AFTER THE REGION: the expert-major shares and scores of the argument arrays. -/
theorem final_shares (c : Dev nD) : (dats m 0 c).arrAt 2 cfg0.N = sharesT (V m c main_arg0) (V m c main_arg1) :=
  (dats m 0 c).arrAt_eq_of_cover 2 (sharesT (V m c main_arg0) (V m c main_arg1)) (fun t _ => flushed_shares m c t) cover2
theorem final_scores (c : Dev nD) : (dats m 0 c).arrAt 3 cfg0.N = scoresT (V m c main_arg0) (V m c main_arg1) :=
  (dats m 0 c).arrAt_eq_of_cover 3 (scoresT (V m c main_arg0) (V m c main_arg1)) (fun t _ => flushed_scores m c t) cover3

end Cert.Router.Blocks

end
-- ==== Proof.KernelRun.lean ====
/-
  The kernel program's run, read.  After the region the first output array holds the expert-major shares and the
  second the expert-major scores; the two host lines that follow swap the last two axes of each, and the
  expert-major array read at (b, e, s) is the token-major one read at (b, s, e).  So the program's two results
  are the token-major shares and scores of its argument arrays, which it leaves unchanged.
-/
import proofs.«176301_g2018634629600_cont_8to1_1040_19_alg».proof.Proof.Blocks
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Router.Kernel

open Cert.KernelIdeal Cert.KernelIdeal.Gen

variable (m : (ℓ : Loc nD τ sig) → Buf (Elt Ideal) ℓ) (ρ : Dev nD → PrngReg)

/-- Swapping the last two axes turns the expert-major shares into the token-major ones … -/
theorem transpose_shares (X : Tokens) (W : Weights) (h : S4x64x4096.Transposes [0, 2, 1] S4x4096x64) :
    transpose S4x4096x64 [0, 2, 1] (sharesT X W) h = shares X W := by
  funext i
  obtain ⟨b, s, e, rfl⟩ : ∃ (b : Fin 4) (s : Fin 4096) (e : Fin 64), i = ix3 b s e := ⟨i 0, i 1, i 2, eq_ix3 i⟩
  rw [transpose_ix3_021_apply]
  rfl

/-- … and the expert-major scores into the token-major ones. -/
theorem transpose_scores (X : Tokens) (W : Weights) (h : S4x64x4096.Transposes [0, 2, 1] S4x4096x64) :
    transpose S4x4096x64 [0, 2, 1] (scoresT X W) h = scores X W := by
  funext i
  obtain ⟨b, s, e, rfl⟩ : ∃ (b : Fin 4) (s : Fin 4096) (e : Fin 64), i = ix3 b s e := ⟨i 0, i 1, i 2, eq_ix3 i⟩
  rw [transpose_ix3_021_apply]
  rfl

/-- The first result after the two host lines: the shares of the argument arrays. -/
theorem shares_result (c : Dev nD) :
    Pipeline.afterTail₀ cfgs (dats m) 0 (V0 m) [hostOps1] c main_v1
      = shares (m ((c.tc : Thread nD τ).loc main_arg0)) (m ((c.tc : Thread nD τ).loc main_arg1)) := by
  unfold Pipeline.afterTail₀
  show StableHlo.after hostOps1 _ (Proc.devRef .tc main_v1) = _
  after_results
  rw [Pipeline.withArrays_arr spec0 launch0.win.arr_inj c _ _ 2, Blocks.final_shares, V_main_arg0, V_main_arg1]
  exact transpose_shares _ _ _

/-- The second result: the scores. -/
theorem scores_result (c : Dev nD) :
    Pipeline.afterTail₀ cfgs (dats m) 0 (V0 m) [hostOps1] c main_v2
      = scores (m ((c.tc : Thread nD τ).loc main_arg0)) (m ((c.tc : Thread nD τ).loc main_arg1)) := by
  unfold Pipeline.afterTail₀
  show StableHlo.after hostOps1 _ (Proc.devRef .tc main_v2) = _
  after_results
  rw [Pipeline.withArrays_arr spec0 launch0.win.arr_inj c _ _ 3, Blocks.final_scores, V_main_arg0, V_main_arg1]
  exact transpose_scores _ _ _

/-- Every weakly fair execution of the kernel program terminates with its two results at the shares and the scores of
    the argument arrays, and the argument arrays as they were. -/
theorem run : θ_run defs (onTc (τ := τ) (main (F := Ideal))) ⟨m, fun _ => 0, ρ⟩ fun r => ∀ c : Dev nD,
      r.2.mem ((c.tc : Thread nD τ).loc main_v1)
        = shares (m ((c.tc : Thread nD τ).loc main_arg0)) (m ((c.tc : Thread nD τ).loc main_arg1))
      ∧ r.2.mem ((c.tc : Thread nD τ).loc main_v2)
        = scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 (by decide) (by decide))).trans (shares_result m c),
      ((h c).2 main_v2 (Pipeline.mem_restRefs_of main_v2 (by decide) (by decide))).trans (scores_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Router.Kernel

end
-- ==== Proof.lean ====
/-
  The proof of `Cert.Claim` for the fused router: logits = x · Wᵀ and a softmax over the 64 experts.

  The kernel multiplies the weight array by a transposed block of 1024 token rows, so it produces the scores
  expert-major, takes the softmax down each column of the block, writes both blocks into [4, 64, 4096] arrays and
  swaps their last two axes on the host afterwards.  The reference contracts the token array with the weight
  array directly, token-major, and takes the softmax along the last axis.  On the extended reals both are the same
  two functions of the arguments (Proof/Router.lean): the score of a token for an expert is one inner product
  (its factors commute), the largest score is the same fold of `max` from −∞ over the same 64 scores, and the
  rest — subtract, exponentiate, sum from zero, divide — is operation for operation the same.  No law that fails
  at an infinity is used, so the precondition is never opened.

  Proof/RefSide.lean reads the reference's generated run as those functions; Proof/Body.lean reads one grid
  point's arithmetic entry by entry; Proof/Blocks.lean assembles the sixteen points' blocks into the two
  expert-major arrays; Proof/KernelRun.lean takes them through the two transposes.  The three frames are the
  generated ones (the reference's frame is its generated run with the results dropped); the idealization rewrote
  nothing, so `preserves` is trivial.
-/
import proofs.«176301_g2018634629600_cont_8to1_1040_19_alg».proof.Defs
import proofs.«176301_g2018634629600_cont_8to1_1040_19_alg».proof.Proof.Gen.Kernel
import proofs.«176301_g2018634629600_cont_8to1_1040_19_alg».proof.Proof.Gen.Kernel.Skeleton
import proofs.«176301_g2018634629600_cont_8to1_1040_19_alg».proof.Proof.Gen.Kernel.Launch
import proofs.«176301_g2018634629600_cont_8to1_1040_19_alg».proof.Proof.Gen.Kernel.Points
import proofs.«176301_g2018634629600_cont_8to1_1040_19_alg».proof.Proof.Gen.Kernel.Frame
import proofs.«176301_g2018634629600_cont_8to1_1040_19_alg».proof.Proof.Gen.KernelIdeal
import proofs.«176301_g2018634629600_cont_8to1_1040_19_alg».proof.Proof.Gen.KernelIdeal.Skeleton
import proofs.«176301_g2018634629600_cont_8to1_1040_19_alg».proof.Proof.Gen.KernelIdeal.Launch
import proofs.«176301_g2018634629600_cont_8to1_1040_19_alg».proof.Proof.Gen.KernelIdeal.Points
import proofs.«176301_g2018634629600_cont_8to1_1040_19_alg».proof.Proof.Gen.KernelIdeal.Frame
import proofs.«176301_g2018634629600_cont_8to1_1040_19_alg».proof.Proof.Gen.ReferenceIdeal
import proofs.«176301_g2018634629600_cont_8to1_1040_19_alg».proof.Proof.Gen.Pre_finite_inputs
import proofs.«176301_g2018634629600_cont_8to1_1040_19_alg».proof.Proof.Gen.ReferenceIdeal.Run
import proofs.«176301_g2018634629600_cont_8to1_1040_19_alg».proof.Proof.Gen.ReferenceIdeal.Read
import proofs.«176301_g2018634629600_cont_8to1_1040_19_alg».proof.Proof.RefSide
import proofs.«176301_g2018634629600_cont_8to1_1040_19_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories that agree on the token and weight arrays, end with the shares first and the
    scores second: the kernel's run is read in Proof/KernelRun.lean, the reference's two result terms are those
    functions by Proof/RefSide.lean. -/
theorem algebraic : Cert.algebraic_KernelIdeal_ReferenceIdeal := by
  intro m ρ m' ρ' _ hagree
  refine ⟨_, _, Cert.Router.Kernel.run m ρ, ?_⟩
  refine (θ_run Cert.ReferenceIdeal.defs _ _).mono (fun _ h c => ?_) (Cert.ReferenceIdeal.Value.run (F := Ideal) m' ρ')
  obtain ⟨h1, h2, h3, h4⟩ := h c
  refine ⟨h1.trans ?_, h2.trans ?_, h3, h4⟩
  · rw [(hagree c).1, (hagree c).2]
    exact (Cert.ReferenceIdeal.Read.val_main_v11_eq _ _).trans (Cert.Router.Ref.shares_eq _ _)
  · rw [(hagree c).1, (hagree c).2]
    exact (Cert.ReferenceIdeal.Read.val_main_v0_eq _ _).trans (Cert.Router.Ref.dot_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
